-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.truncf_extf.Statement Cert.KernelIdeal.S1024x128 .f32 .bf16
  ∧ IdealRules.truncf_extf.Statement Cert.KernelIdeal.S2048x128 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S32768x128 : Shape := ⟨2, ![32768, 128]⟩
abbrev S32768x1 : Shape := ⟨2, ![32768, 1]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S32768x128 : S_.BroadcastsInDim S32768x128 (![] : Fin 0 → Fin S32768x128.rank)
  reducesTo_S32768x128_S_d0_1 : S32768x128.ReducesTo [0, 1] S_
  bcast_S_S32768x1 : S_.BroadcastsInDim S32768x1 (![] : Fin 0 → Fin S32768x1.rank)
  reducesTo_S32768x1_S_d0_1 : S32768x1.ReducesTo [0, 1] S_

variable [Facts]

def fn {F : FTy → Type} [FloatOps F] (main_arg0 : FVec F S8192x128 .f32) (main_arg1 : FVec F S32768x128 .f32) (main_arg2 : FVec F S32768x1 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S32768x128 .f32 := Host.absf main_arg1
  let main_cst_0 : FVec F S_ .f32 := constant S_ .f32 0x7F800000#32
  let main_v5 : FVec F S32768x128 .f32 := broadcastInDim S32768x128 ![] bcast_S_S32768x128 main_cst_0
  let main_v6 : IVec S32768x128 1 := cmpf .olt main_v4 main_v5
  let main_c_1 : IVec S_ 1 := constantI S_ 1 1#1
  let main_v7 : IVec S_ 1 := (fun x v => Host.reduce IntOp.andi x v reducesTo_S32768x128_S_d0_1 h_S_) main_v6 main_c_1
  let main_v8 : IVec S_ 1 := andi main_v3 main_v7
  let main_v9 : FVec F S32768x1 .f32 := Host.absf main_arg2
  let main_cst_2 : FVec F S_ .f32 := constant S_ .f32 0x7F800000#32
  let main_v10 : FVec F S32768x1 .f32 := broadcastInDim S32768x1 ![] bcast_S_S32768x1 main_cst_2
  let main_v11 : IVec S32768x1 1 := cmpf .olt main_v9 main_v10
  let main_c_3 : IVec S_ 1 := constantI S_ 1 1#1
  let main_v12 : IVec S_ 1 := (fun x v => Host.reduce IntOp.andi x v reducesTo_S32768x1_S_d0_1 h_S_) main_v11 main_c_3
  let main_v13 : IVec S_ 1 := andi main_v8 main_v12
  main_v13
-- ==== Kernel.lean ====
abbrev S8192x128 : Shape := ⟨2, ![8192, 128]⟩
abbrev S32768x128 : Shape := ⟨2, ![32768, 128]⟩
abbrev S32768x1 : Shape := ⟨2, ![32768, 1]⟩
abbrev S_ : Shape := ⟨0, ![]⟩
abbrev S8192 : Shape := ⟨1, ![8192]⟩
abbrev S8192x1 : Shape := ⟨2, ![8192, 1]⟩
abbrev S32768 : Shape := ⟨1, ![32768]⟩
abbrev S1x32768 : Shape := ⟨2, ![1, 32768]⟩
abbrev S1024x128 : Shape := ⟨2, ![1024, 128]⟩
abbrev S2048x128 : Shape := ⟨2, ![2048, 128]⟩
abbrev S1024x1 : Shape := ⟨2, ![1024, 1]⟩
abbrev S1x2048 : Shape := ⟨2, ![1, 2048]⟩
abbrev S1024x2048 : Shape := ⟨2, ![1024, 2048]⟩
abbrev S1024 : Shape := ⟨1, ![1024]⟩

abbrev nBuf : Space → Nat
  | .hbm => 19
  | .vmem => 13
  | .smem => 0
  | _ => 0

abbrev bufTy : (tb : Table) → Fin (tcTables nBuf tb) → BufTy
  | .hbm, ⟨0, _⟩ => ⟨S8192x128, .f32⟩
  | .hbm, ⟨1, _⟩ => ⟨S32768x128, .f32⟩
  | .hbm, ⟨2, _⟩ => ⟨S32768x1, .f32⟩
  | .hbm, ⟨3, _⟩ => ⟨S8192x128, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S32768x128, .f32⟩
  | .hbm, ⟨11, _⟩ => ⟨S_, .f32⟩
  | .hbm, ⟨12, _⟩ => ⟨S32768, .f32⟩
  | .hbm, ⟨13, _⟩ => ⟨S_, .f32⟩
  | .hbm, ⟨14, _⟩ => ⟨S32768, .f32⟩
  | .hbm, ⟨15, _⟩ => ⟨S32768, .f32⟩
  | .hbm, ⟨16, _⟩ => ⟨S1x32768, .f32⟩
  | .hbm, ⟨17, _⟩ => ⟨S1x32768, .f32⟩
  | .hbm, ⟨18, _⟩ => ⟨S8192x1, .f32⟩
  | .local _ .vmem, ⟨0, _⟩ => ⟨S1024x128, .f32⟩
  | .local _ .vmem, ⟨1, _⟩ => ⟨S1024x128, .f32⟩
  | .local _ .vmem, ⟨2, _⟩ => ⟨S2048x128, .f32⟩
  | .local _ .vmem, ⟨3, _⟩ => ⟨S2048x128, .f32⟩
  | .local _ .vmem, ⟨4, _⟩ => ⟨S1024x1, .f32⟩
  | .local _ .vmem, ⟨5, _⟩ => ⟨S1024x1, .f32⟩
  | .local _ .vmem, ⟨6, _⟩ => ⟨S1x2048, .f32⟩
  | .local _ .vmem, ⟨7, _⟩ => ⟨S1x2048, .f32⟩
  | .local _ .vmem, ⟨8, _⟩ => ⟨S1x2048, .f32⟩
  | .local _ .vmem, ⟨9, _⟩ => ⟨S1x2048, .f32⟩
  | .local _ .vmem, ⟨10, _⟩ => ⟨S1024x1, .f32⟩
  | .local _ .vmem, ⟨11, _⟩ => ⟨S1024x1, .f32⟩
  | .local _ .vmem, ⟨12, _⟩ => ⟨S1024x1, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v40 : BitVec 1 := Scalar.cmpi .eq arg1 c15_i32
  let v41 : BitVec 32 := Scalar.extui v40
  let c0_i32_18 : BitVec 32 := 0#32
  let v42 : BitVec 1 := Scalar.cmpi .ne v41 c0_i32_18
  v42

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  reducesTo_S32768x128_S32768_d1 : S32768x128.ReducesTo [1] S32768
  bcast_S_S32768 : S_.BroadcastsInDim S32768 (![] : Fin 0 → Fin S32768.rank)
  shapeCasts_S32768_S1x32768 : S32768.ShapeCasts S1x32768
  shapeCasts_S32768x1_S1x32768 : S32768x1.ShapeCasts S1x32768
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x128_S1024x128_0_0 : ∀ a, (![0, 0] : Fin 2 → Nat) a + S1024x128.size a ≤ S1024x128.size a
  h_S1024x128 : 0 < S1024x128.numel
  inb_S2048x128_S2048x128_0_0 : ∀ a, (![0, 0] : Fin 2 → Nat) a + S2048x128.size a ≤ S2048x128.size a
  h_S2048x128 : 0 < S2048x128.numel
  bitsLt_bf16_f32 : FTy.bits .bf16 < FTy.bits .f32
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1024x1_S1024x2048 : S1024x1.Broadcasts S1024x2048
  broadcasts_S1x2048_S1024x2048 : S1x2048.Broadcasts S1024x2048
  reduces_S1024x2048_S1024 : S1024x2048.Reduces [1] S1024
  shapeCasts_S1024_S1024x1 : S1024.ShapeCasts S1024x1
  dot_S1024x128_S2048x128_S1024x2048_1_1_0_0_n_n_wf : DotDims.WF S1024x128 S2048x128 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .f32 = 32 ∨ (Rect.block (s := S8192x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S32768x128.size a
  hwx0_1 : ∀ i : grid0.Coords, EltTy.bits .f32 = 32 ∨ (Rect.block (s := S32768x128) S2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x32768.size a
  hwx0_3 : ∀ i : grid0.Coords, EltTy.bits .f32 = 32 ∨ (Rect.block (s := S1x32768) S1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x32768.size a
  hwx0_4 : ∀ i : grid0.Coords, EltTy.bits .f32 = 32 ∨ (Rect.block (s := S1x32768) S1x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S8192x1.size a
  hwx0_5 : ∀ i : grid0.Coords, EltTy.bits .f32 = 32 ∨ (Rect.block (s := S8192x1) S1024x1.size (cc0_transform_5 i) (hinb0_5 i)).WholeWords (EltTy.packing .f32)

variable [Facts₀]

def dot_S1024x128_S2048x128_S1024x2048_1_1_0_0_n_n : DotDims S1024x128 S2048x128 S1024x2048 where
  lhsContracting := [1]
  rhsContracting := [1]
  lhsNonContracting := [0]
  rhsNonContracting := [0]
  lhsBatch := []
  rhsBatch := []
  wf := dot_S1024x128_S2048x128_S1024x2048_1_1_0_0_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v11) S1024x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S8192x128 : Shape := ⟨2, ![8192, 128]⟩
abbrev S32768x128 : Shape := ⟨2, ![32768, 128]⟩
abbrev S32768x1 : Shape := ⟨2, ![32768, 1]⟩
abbrev S_ : Shape := ⟨0, ![]⟩
abbrev S8192 : Shape := ⟨1, ![8192]⟩
abbrev S8192x1 : Shape := ⟨2, ![8192, 1]⟩
abbrev S32768 : Shape := ⟨1, ![32768]⟩
abbrev S8192x32768 : Shape := ⟨2, ![8192, 32768]⟩
abbrev S1x32768 : Shape := ⟨2, ![1, 32768]⟩

abbrev nBuf : Space → Nat
  | .hbm => 28
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S32768x128, .f32⟩
  | .hbm, ⟨2, _⟩ => ⟨S32768x1, .f32⟩
  | .hbm, ⟨3, _⟩ => ⟨S8192x128, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S32768x128, .f32⟩
  | .hbm, ⟨8, _⟩ => ⟨S_, .f32⟩
  | .hbm, ⟨9, _⟩ => ⟨S32768, .f32⟩
  | .hbm, ⟨10, _⟩ => ⟨S8192x32768, .f32⟩
  | .hbm, ⟨11, _⟩ => ⟨S1x32768, .f32⟩
  | .hbm, ⟨12, _⟩ => ⟨S8192x32768, .f32⟩
  | .hbm, ⟨13, _⟩ => ⟨S8192x32768, .f32⟩
  | .hbm, ⟨14, _⟩ => ⟨S8192x32768, .f32⟩
  | .hbm, ⟨15, _⟩ => ⟨S_, .f32⟩
  | .hbm, ⟨16, _⟩ => ⟨S8192x32768, .f32⟩
  | .hbm, ⟨17, _⟩ => ⟨S8192x32768, .f32⟩
  | .hbm, ⟨18, _⟩ => ⟨S8192x32768, .f32⟩
  | .hbm, ⟨19, _⟩ => ⟨S_, .f32⟩
  | .hbm, ⟨20, _⟩ => ⟨S8192x32768, .f32⟩
  | .hbm, ⟨21, _⟩ => ⟨S8192x32768, .f32⟩
  | .hbm, ⟨22, _⟩ => ⟨S8192x32768, .f32⟩
  | .hbm, ⟨23, _⟩ => ⟨S_, .f32⟩
  | .hbm, ⟨24, _⟩ => ⟨S8192x32768, .f32⟩
  | .hbm, ⟨25, _⟩ => ⟨S8192x32768, .f32⟩
  | .hbm, ⟨26, _⟩ => ⟨S8192x32768, .f32⟩
  | .hbm, ⟨27, _⟩ => ⟨S8192x1, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  reducesTo_S32768x128_S32768_d1 : S32768x128.ReducesTo [1] S32768
  bcast_S32768_S1x32768_1 : S32768.BroadcastsInDim S1x32768 (![1] : Fin 1 → Fin S1x32768.rank)
  bcast_S8192x1_S8192x32768_0_1 : S8192x1.BroadcastsInDim S8192x32768 (![0, 1] : Fin 2 → Fin S8192x32768.rank)
  bcast_S1x32768_S8192x32768_0_1 : S1x32768.BroadcastsInDim S8192x32768 (![0, 1] : Fin 2 → Fin S8192x32768.rank)
  bcast_S_S8192x32768 : S_.BroadcastsInDim S8192x32768 (![] : Fin 0 → Fin S8192x32768.rank)
  dot_S8192x128_S32768x128_S8192x32768_1_1_0_0_n_n_wf : DotDims.WF S8192x128 S32768x128 S8192x32768 [1] [1] [0] [0] [] []
  dot_S8192x32768_S32768x1_S8192x1_1_0_0_1_n_n_wf : DotDims.WF S8192x32768 S32768x1 S8192x1 [1] [0] [0] [1] [] []

variable [Facts₀]

def dot_S8192x128_S32768x128_S8192x32768_1_1_0_0_n_n : DotDims S8192x128 S32768x128 S8192x32768 where
  lhsContracting := [1]
  rhsContracting := [1]
  lhsNonContracting := [0]
  rhsNonContracting := [0]
  lhsBatch := []
  rhsBatch := []
  wf := dot_S8192x128_S32768x128_S8192x32768_1_1_0_0_n_n_wf
def dot_S8192x32768_S32768x1_S8192x1_1_0_0_1_n_n : DotDims S8192x32768 S32768x1 S8192x1 where
  lhsContracting := [1]
  rhsContracting := [0]
  lhsNonContracting := [0]
  rhsNonContracting := [1]
  lhsBatch := []
  rhsBatch := []
  wf := dot_S8192x32768_S32768x1_S8192x1_1_0_0_1_n_n_wf

class Facts : Prop extends Facts₀ where

variable [Facts]
-- ==== Proof.Pieces.lean ====
/-
  What one grid point leaves behind, as a pure function of what it finds.

  The body at a grid point (i, k) loads its five input blocks and the running column `acc` held in the scratch, and
  stores `acc + partial` back, where `partial` is the column of row sums of the weighted Gaussian tile. At k = 0 it first
  overwrites the scratch with zeros, so the running column it reads is the zero column; at the last k it also copies
  the freshly stored column into the output block. Hence, in every case, the scratch ends at
      step (blocks) acc       with acc the zero column at k = 0, the previous point's column otherwise,
  and at the last k the output block holds that same column. The lemmas below state this for the three cases of the
  two conditionals; they hold for any float instance, since only loads, stores and their coverage are involved.
-/
import proofs.«179468_j18863496364430_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- One accumulation step: the column a point stores into the scratch, from its input blocks and the column it read. -/
abbrev step (x0 : Vec F S1024x128 .f32) (x1 : Vec F S2048x128 .f32) (x2 : Vec F S1024x1 .f32) (x3 : Vec F S1x2048 .f32)
    (x4 : Vec F S1x2048 .f32) (acc : Vec F S1024x1 .f32) : Vec F S1024x1 .f32 :=
  k0_pay1 (k0_pay3 x0 x1 x2 x3 x4 acc)

/-- A middle point (neither first nor last k): one covering store of the step over the column found. -/
theorem sout_B (c : Dev nD) (i : grid0.Coords) (a2 : Memref sig .tc .vmem S1024x128 .f32) (h2 : a2.IsWhole) (a3 : Memref sig .tc .vmem S2048x128 .f32) (h3 : a3.IsWhole) (a4 : Memref sig .tc .vmem S1024x1 .f32) (h4 : a4.IsWhole) (a5 : Memref sig .tc .vmem S1x2048 .f32) (h5 : a5.IsWhole) (a6 : Memref sig .tc .vmem S1x2048 .f32) (h6 : a6.IsWhole) (a7 : Memref sig .tc .vmem S1024x1 .f32) (h7 : a7.IsWhole) (a8 : Memref sig .tc .vmem S1024x1 .f32) (h8 : a8.IsWhole) (hc0 : ¬cond0_0 i) (hc1 : ¬cond0_1 i) (x0 : Vec F S1024x128 .f32) (x1 : Vec F S2048x128 .f32) (x2 : Vec F S1024x1 .f32) (x3 : Vec F S1x2048 .f32) (x4 : Vec F S1x2048 .f32) (xs0 : Vec F S1024x1 .f32) :
    sout0_B_0 c i a2 h2 a3 h3 a4 h4 a5 h5 a6 h6 a7 h7 a8 h8 hc0 hc1 x0 x1 x2 x3 x4 xs0 = step x0 x1 x2 x3 x4 xs0 := by
  unfold sout0_B_0
  rw [View.read_writes_eq_canon _ _ _ (scover0_B_0 c i a2 h2 a3 h3 a4 h4 a5 h5 a6 h6 a7 h7 a8 h8 hc0 hc1 x0 x1 x2 x3 x4 xs0)]
  unfold kernelRun0_B
  dsimp only
  sl_unfold_words
  rw [View.canon_unit_zero hz]
  simp only [View.readAt_eq_ld, h2.read_unread, h3.read_unread, h4.read_unread, h5.read_unread, h6.read_unread, h8.read_unread, View.ld_unit_zero (S := S1024x128) hz, View.ld_unit_zero (S := S2048x128) hz, View.ld_unit_zero (S := S1024x1) hz, View.ld_unit_zero (S := S1x2048) hz]

/-- The last k: the scratch again ends at the step over the column found, -/
theorem sout_C (c : Dev nD) (i : grid0.Coords) (a2 : Memref sig .tc .vmem S1024x128 .f32) (h2 : a2.IsWhole) (a3 : Memref sig .tc .vmem S2048x128 .f32) (h3 : a3.IsWhole) (a4 : Memref sig .tc .vmem S1024x1 .f32) (h4 : a4.IsWhole) (a5 : Memref sig .tc .vmem S1x2048 .f32) (h5 : a5.IsWhole) (a6 : Memref sig .tc .vmem S1x2048 .f32) (h6 : a6.IsWhole) (a7 : Memref sig .tc .vmem S1024x1 .f32) (h7 : a7.IsWhole) (a8 : Memref sig .tc .vmem S1024x1 .f32) (h8 : a8.IsWhole) (hc0 : ¬cond0_0 i) (hc1 : cond0_1 i) (x0 : Vec F S1024x128 .f32) (x1 : Vec F S2048x128 .f32) (x2 : Vec F S1024x1 .f32) (x3 : Vec F S1x2048 .f32) (x4 : Vec F S1x2048 .f32) (xs0 : Vec F S1024x1 .f32) :
    sout0_C_0 c i a2 h2 a3 h3 a4 h4 a5 h5 a6 h6 a7 h7 a8 h8 hc0 hc1 x0 x1 x2 x3 x4 xs0 = step x0 x1 x2 x3 x4 xs0 := by
  unfold sout0_C_0
  rw [View.read_writes_eq_canon _ _ _ (scover0_C_0 c i a2 h2 a3 h3 a4 h4 a5 h5 a6 h6 a7 h7 a8 h8 hc0 hc1 x0 x1 x2 x3 x4 xs0)]
  unfold kernelRun0_C
  dsimp only
  sl_unfold_words
  rw [View.canon_unit_zero hz]
  simp only [View.readAt_eq_ld, h2.read_unread, h3.read_unread, h4.read_unread, h5.read_unread, h6.read_unread, h8.read_unread, View.ld_unit_zero (S := S1024x128) hz, View.ld_unit_zero (S := S2048x128) hz, View.ld_unit_zero (S := S1024x1) hz, View.ld_unit_zero (S := S1x2048) hz]

/-- and the output block holds the column just stored: the body reads the scratch back and stores it whole. -/
theorem out_C (c : Dev nD) (i : grid0.Coords) (a2 : Memref sig .tc .vmem S1024x128 .f32) (h2 : a2.IsWhole) (a3 : Memref sig .tc .vmem S2048x128 .f32) (h3 : a3.IsWhole) (a4 : Memref sig .tc .vmem S1024x1 .f32) (h4 : a4.IsWhole) (a5 : Memref sig .tc .vmem S1x2048 .f32) (h5 : a5.IsWhole) (a6 : Memref sig .tc .vmem S1x2048 .f32) (h6 : a6.IsWhole) (a7 : Memref sig .tc .vmem S1024x1 .f32) (h7 : a7.IsWhole) (a8 : Memref sig .tc .vmem S1024x1 .f32) (h8 : a8.IsWhole) (hc0 : ¬cond0_0 i) (hc1 : cond0_1 i) (x0 : Vec F S1024x128 .f32) (x1 : Vec F S2048x128 .f32) (x2 : Vec F S1024x1 .f32) (x3 : Vec F S1x2048 .f32) (x4 : Vec F S1x2048 .f32) (xs0 : Vec F S1024x1 .f32) :
    out0_C_5 c i a2 h2 a3 h3 a4 h4 a5 h5 a6 h6 a7 h7 a8 h8 hc0 hc1 x0 x1 x2 x3 x4 xs0 = step x0 x1 x2 x3 x4 xs0 := by
  unfold out0_C_5
  rw [View.read_writes_eq_canon _ _ _ (cover0_C_5 c i a2 h2 a3 h3 a4 h4 a5 h5 a6 h6 a7 h7 a8 h8 hc0 hc1 x0 x1 x2 x3 x4 xs0)]
  unfold kernelRun0_C
  dsimp only
  sl_unfold_words
  rw [View.canon_unit_zero hz, View.readCov_unit_zero (S := S1024x1) _ hz]
  simp only [View.readAt_eq_ld, h2.read_unread, h3.read_unread, h4.read_unread, h5.read_unread, h6.read_unread, h8.read_unread, View.ld_unit_zero (S := S1024x128) hz, View.ld_unit_zero (S := S2048x128) hz, View.ld_unit_zero (S := S1024x1) hz, View.ld_unit_zero (S := S1x2048) hz]

/-- The first k: the zero column is stored first and read back, so the step runs over the zero column. -/
theorem sout_A (c : Dev nD) (i : grid0.Coords) (a2 : Memref sig .tc .vmem S1024x128 .f32) (h2 : a2.IsWhole) (a3 : Memref sig .tc .vmem S2048x128 .f32) (h3 : a3.IsWhole) (a4 : Memref sig .tc .vmem S1024x1 .f32) (h4 : a4.IsWhole) (a5 : Memref sig .tc .vmem S1x2048 .f32) (h5 : a5.IsWhole) (a6 : Memref sig .tc .vmem S1x2048 .f32) (h6 : a6.IsWhole) (a7 : Memref sig .tc .vmem S1024x1 .f32) (h7 : a7.IsWhole) (a8 : Memref sig .tc .vmem S1024x1 .f32) (h8 : a8.IsWhole) (hc0 : cond0_0 i) (hc1 : ¬cond0_1 i) (x0 : Vec F S1024x128 .f32) (x1 : Vec F S2048x128 .f32) (x2 : Vec F S1024x1 .f32) (x3 : Vec F S1x2048 .f32) (x4 : Vec F S1x2048 .f32) :
    sout0_A_0 c i a2 h2 a3 h3 a4 h4 a5 h5 a6 h6 a7 h7 a8 h8 hc0 hc1 x0 x1 x2 x3 x4 = step x0 x1 x2 x3 x4 k0_pay2 := by
  unfold sout0_A_0
  rw [View.read_writes_eq_canon _ _ _ (scover0_A_0 c i a2 h2 a3 h3 a4 h4 a5 h5 a6 h6 a7 h7 a8 h8 hc0 hc1 x0 x1 x2 x3 x4)]
  unfold kernelRun0_A
  dsimp only
  sl_unfold_words
  rw [View.canon_cons_unit_zero (S := S1024x1) hz, View.readCov_unit_zero (S := S1024x1) _ hz]
  simp only [View.readAt_eq_ld, h2.read_unread, h3.read_unread, h4.read_unread, h5.read_unread, h6.read_unread, h8.read_unread, View.ld_unit_zero (S := S1024x128) hz, View.ld_unit_zero (S := S2048x128) hz, View.ld_unit_zero (S := S1024x1) hz, View.ld_unit_zero (S := S1x2048) hz]

end Cert.KernelIdeal.Pieces

end
-- ==== Proof.LibKeepdims.lean ====
/-
  Keep-dimension layout operations and row reductions of a matrix, read at an index given by coordinates.
  A row statistic of an [a, b] matrix (a maximum or a sum along the columns) is a vector of length a; kept as a
  column it is cast to [a, 1] and broadcast back over the b columns. Read at (p, c) each step is the identity on
  the row coordinate: the cast reads the vector at p, the broadcast reads the column at (p, 0), and the reductions
  are the fold of max from the start word, and the sum, over the b entries of row p.
-/
import Idealize.ShloMosaic.Lib.ValueIdx
import Idealize.ShloMosaic.Lib.ValueLayout
import Idealize.ShloMosaic.PureOps.Ideal.Laws

namespace Idealize.ShloMosaic.ValueIdx

open Idealize.ShloMosaic

variable {α : Type}

/-- A vector of length `a` cast to the column shape `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over `b` columns reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a one-axis reduction along the columns inserts: row `p`, column `k`. -/
theorem lift_cols {a b : ℕ} (h : (⟨2, ![a, b]⟩ : Shape).Reduces [1] ⟨1, ![a]⟩) (p : Fin a) (k : Fin b) :
    h.lift (ix1 p) k = ix2 p k :=
  funext fun ax => Fin.ext (by match ax with | ⟨0, _⟩ => rfl | ⟨1, _⟩ => rfl)

/-- The maximum along the columns of an `[a, b]` matrix at row `p`: the fold of max, from the start word, over the
    row's entries. -/
theorem rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin b)).fold max (Ideal.ofBits φ acc) (fun k => src (ix2 p k)) := by
  refine (Ideal.multiReduction_maximumf_single src acc h hφ hacc (ix1 p)).trans ?_
  have e : (src ∘ h.lift (ix1 p) : Fin b → EReal) = fun k => src (ix2 p k) :=
    funext fun k => congrArg src (lift_cols h p k)
  exact congrArg (fun f : Fin b → EReal => (Finset.univ : Finset (Fin b)).fold max (Ideal.ofBits φ acc) f) e

/-- The sum along the columns of an `[a, b]` matrix at row `p`: the sum of the row's entries. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  refine (Ideal.multiReduction_add_single src acc h hφ hacc (ix1 p)).trans ?_
  exact Finset.sum_congr rfl fun k _ => congrArg src (lift_cols h p k)

end Idealize.ShloMosaic.ValueIdx
-- ==== Proof.TileRow.lean ====
import proofs.«179468_j18863496364430_2_alg».proof.Proof.Pieces
import proofs.«179468_j18863496364430_2_alg».proof.Proof.LibKeepdims
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx

/-
  One accumulation step, read at a row.

  At the extended reals a change of float format is the identity, so the "high part" of a block is the block itself and
  its "low part" is `x − x`. The step adds to the running column, at row `r`, the sum over the 2048 columns `j` of
      exp (min (((x_r·y_j + x_r·(y_j − y_j)) + (x_r − x_r)·y_j) + hx_r + hy_j) 0) · w_j
  where `x_r·y_j` is the dot product of row `r` of the query block with row `j` of the training block, and `hx`, `hy`, `w` are
  the column and the two rows handed to the point. Nothing here needs the entries to be finite.
-/

namespace Cert.KernelIdeal.TileRow

open Cert.KernelIdeal Cert.KernelIdeal.Gen

theorem lhs_row (i : S1024x2048.Idx) (q : dot_S1024x128_S2048x128_S1024x2048_1_1_0_0_n_n.contr.Idx) :
    (dot_S1024x128_S2048x128_S1024x2048_1_1_0_0_n_n.lhsIdx i q 0).val = (i 0).val := by
  unfold DotDims.lhsIdx
  rw [dif_neg (show ¬(0 : Fin S1024x128.rank) ∈ dot_S1024x128_S2048x128_S1024x2048_1_1_0_0_n_n.lhsBatch by decide), dif_pos (show (0 : Fin S1024x128.rank) ∈ dot_S1024x128_S2048x128_S1024x2048_1_1_0_0_n_n.lhsNonContracting by decide)]
  rfl
theorem lhs_col (i : S1024x2048.Idx) (q : dot_S1024x128_S2048x128_S1024x2048_1_1_0_0_n_n.contr.Idx) :
    (dot_S1024x128_S2048x128_S1024x2048_1_1_0_0_n_n.lhsIdx i q 1).val = (q ⟨0, by decide⟩).val :=
  dot_S1024x128_S2048x128_S1024x2048_1_1_0_0_n_n.lhsIdx_val_of_single rfl i q
theorem rhs_row (i : S1024x2048.Idx) (q : dot_S1024x128_S2048x128_S1024x2048_1_1_0_0_n_n.contr.Idx) :
    (dot_S1024x128_S2048x128_S1024x2048_1_1_0_0_n_n.rhsIdx i q 0).val = (i 1).val := by
  unfold DotDims.rhsIdx
  rw [dif_neg (show ¬(0 : Fin S2048x128.rank) ∈ dot_S1024x128_S2048x128_S1024x2048_1_1_0_0_n_n.rhsBatch by decide), dif_pos (show (0 : Fin S2048x128.rank) ∈ dot_S1024x128_S2048x128_S1024x2048_1_1_0_0_n_n.rhsNonContracting by decide)]
  rfl
theorem rhs_col (i : S1024x2048.Idx) (q : dot_S1024x128_S2048x128_S1024x2048_1_1_0_0_n_n.contr.Idx) :
    (dot_S1024x128_S2048x128_S1024x2048_1_1_0_0_n_n.rhsIdx i q 1).val = (q ⟨0, by decide⟩).val :=
  dot_S1024x128_S2048x128_S1024x2048_1_1_0_0_n_n.rhsIdx_val_of_single rfl i q

/-- The tile product into the zero tile, at `(r, j)`: the dot product of row `r` of the left block and row `j` of the
    right block (both operands are contracted along their second axis). -/
theorem matmul_rows {φ₁ φ₂ : FTy} (A : FVec Ideal S1024x128 φ₁) (B : FVec Ideal S2048x128 φ₂) (r : Fin 1024) (j : Fin 2048) :
    matmul dot_S1024x128_S2048x128_S1024x2048_1_1_0_0_n_n none A B (constant (F := Ideal) S1024x2048 .f32 0x00000000#32) (ix2 r j)
      = ∑ d : Fin 128, A (ix2 r d) * B (ix2 j d) := by
  simp only [matmul]
  rw [Ideal.matmul_constant_zero_apply, ← Equiv.sum_comp (ValueIdx.contrEquiv1 dot_S1024x128_S2048x128_S1024x2048_1_1_0_0_n_n 128 rfl rfl).symm]
  refine Finset.sum_congr rfl fun k _ => ?_
  have hk := ValueIdx.contrEquiv1_symm_val dot_S1024x128_S2048x128_S1024x2048_1_1_0_0_n_n 128 rfl rfl k
  have el : dot_S1024x128_S2048x128_S1024x2048_1_1_0_0_n_n.lhsIdx (ix2 r j) ((ValueIdx.contrEquiv1 dot_S1024x128_S2048x128_S1024x2048_1_1_0_0_n_n 128 rfl rfl).symm k) = ix2 r k := funext fun a => Fin.ext (by
    match a with
    | ⟨0, _⟩ => exact lhs_row _ _
    | ⟨1, _⟩ => exact (lhs_col _ _).trans hk)
  have er : dot_S1024x128_S2048x128_S1024x2048_1_1_0_0_n_n.rhsIdx (ix2 r j) ((ValueIdx.contrEquiv1 dot_S1024x128_S2048x128_S1024x2048_1_1_0_0_n_n 128 rfl rfl).symm k) = ix2 j k := funext fun a => Fin.ext (by
    match a with
    | ⟨0, _⟩ => exact rhs_row _ _
    | ⟨1, _⟩ => exact (rhs_col _ _).trans hk)
  rw [el, er]

/-- The lane sum of a `1024 × 2048` tile from the zero word, at row `r`: the sum of the row's entries. -/
theorem rowSum_zero_apply (src : FVec Ideal S1024x2048 .f32) (hφ : FKind.Formats .f32)
    (hacc : (0x00000000#32 : BitVec 32) = 0x00000000#32) (r : Fin 1024) :
    multiReduction .add [1] S1024 src 0x00000000#32 reduces_S1024x2048_S1024 hφ hacc (ix1 r)
      = ∑ k : Fin 2048, src (ix2 r k) :=
  rowSum_apply src 0x00000000#32 reduces_S1024x2048_S1024 hφ hacc r

/-- The step at row `r`: the column found there plus the row's sum of weighted exponentials. -/
theorem step_apply (x0 : Vec Ideal S1024x128 .f32) (x1 : Vec Ideal S2048x128 .f32) (x2 : Vec Ideal S1024x1 .f32)
    (x3 x4 : Vec Ideal S1x2048 .f32) (acc : Vec Ideal S1024x1 .f32) (r : Fin 1024) (u : Fin 1) :
    Cert.KernelIdeal.Pieces.step (F := Ideal) x0 x1 x2 x3 x4 acc (ix2 r u)
      = acc (ix2 r u) + ∑ j : Fin 2048,
          Ideal.exp (min (((((∑ d : Fin 128, x0 (ix2 r d) * x1 (ix2 j d))
              + (∑ d : Fin 128, x0 (ix2 r d) * (x1 (ix2 j d) - x1 (ix2 j d))))
              + (∑ d : Fin 128, (x0 (ix2 r d) - x0 (ix2 r d)) * x1 (ix2 j d)))
              + x2 (ix2 r (0 : Fin 1))) + x3 (ix2 (0 : Fin 1) j)) (Ideal.ofBits .f32 0x00000000#32))
            * x4 (ix2 (0 : Fin 1) j) := by
  unfold Cert.KernelIdeal.Pieces.step k0_pay1 k0_pay3
  dsimp only
  simp only [shapeCast_self]
  rw [addf_apply, shapeCast_a_a1_apply]
  refine (congrArg (acc (ix2 r u) + ·) (rowSum_zero_apply _ _ _ r)).trans ?_
  refine congrArg (acc (ix2 r u) + ·) (Finset.sum_congr rfl fun j _ => ?_)
  rw [mulf_apply, broadcastTo_1b_ab_apply]
  refine congrArg (· * x4 (ix2 (0 : Fin 1) j)) ?_
  show Ideal.exp (min _ _) = _
  rw [addf_apply, addf_apply, addf_apply, addf_apply, matmul_rows, matmul_rows, matmul_rows,
    broadcastTo_a1_ab_apply, broadcastTo_1b_ab_apply]
  rfl

/-- The column the first point of a row of the grid starts from is the zero column. -/
theorem zero_col_apply (y : S1024x1.Idx) : k0_pay2 (F := Ideal) y = 0 := by
  unfold k0_pay2
  rw [shapeCast_self]
  exact Ideal.ofBits_zero_f32

end Cert.KernelIdeal.TileRow

end
-- ==== Proof.LibBcast.lean ====
/-
  Layout operations of small ranks read at an index given by coordinates: a vector made a column or a row, a column or a
  row repeated along the other axis, a scalar repeated everywhere. Each reads the operand at the coordinates it keeps.
-/
import Idealize.ShloMosaic.Lib.ValueIdx
import Idealize.ShloMosaic.Lib.Pipeline.Value
import Idealize.ShloMosaic.Lib.ValueLayout

namespace Cert.LibBcast

open Idealize.ShloMosaic Idealize.ShloMosaic.ValueIdx

variable {α : Type}

/-- A length-`a` vector broadcast to an `[a, 1]` column reads, at `(p, u)`, the vector at `p`. -/
theorem bid_col_apply {a : ℕ} (v : (⟨1, ![a]⟩ : Shape).Idx → α)
    (h : (⟨1, ![a]⟩ : Shape).BroadcastsInDim ⟨2, ![a, 1]⟩ (![0] : Fin 1 → Fin 2)) (p : Fin a) (u : Fin 1) :
    broadcastInDim ⟨2, ![a, 1]⟩ ![0] h v (ix2 p u) = v (ix1 p) :=
  broadcastInDim_apply _ h v (ix2 p u) (ix1 p) (fun d => by
    match d with
    | ⟨0, _⟩ =>
      show p.val = if a = 1 then 0 else p.val
      split_ifs with h1
      · have := p.isLt; omega
      · rfl)

/-- A length-`b` vector broadcast to a `[1, b]` row reads, at `(u, q)`, the vector at `q`. -/
theorem bid_row_apply {b : ℕ} (v : (⟨1, ![b]⟩ : Shape).Idx → α)
    (h : (⟨1, ![b]⟩ : Shape).BroadcastsInDim ⟨2, ![1, b]⟩ (![1] : Fin 1 → Fin 2)) (u : Fin 1) (q : Fin b) :
    broadcastInDim ⟨2, ![1, b]⟩ ![1] h v (ix2 u q) = v (ix1 q) :=
  broadcastInDim_apply _ h v (ix2 u q) (ix1 q) (fun d => by
    match d with
    | ⟨0, _⟩ =>
      show q.val = if b = 1 then 0 else q.val
      split_ifs with h1
      · have := q.isLt; omega
      · rfl)

/-- An `[a, 1]` column repeated over `b` columns reads, at `(p, q)`, the column at `(p, 0)`. -/
theorem bid_a1_ab_apply {a b : ℕ} (v : (⟨2, ![a, 1]⟩ : Shape).Idx → α)
    (h : (⟨2, ![a, 1]⟩ : Shape).BroadcastsInDim ⟨2, ![a, b]⟩ (![0, 1] : Fin 2 → Fin 2)) (p : Fin a) (q : Fin b) :
    broadcastInDim ⟨2, ![a, b]⟩ ![0, 1] h v (ix2 p q) = v (ix2 p (0 : Fin 1)) :=
  broadcastInDim_apply _ h v (ix2 p q) (ix2 p (0 : Fin 1)) (fun d => by
    match d with
    | ⟨0, _⟩ =>
      show p.val = if a = 1 then 0 else p.val
      split_ifs with h1
      · have := p.isLt; omega
      · rfl
    | ⟨1, _⟩ =>
      show (0 : ℕ) = if (1 : ℕ) = 1 then 0 else q.val
      rw [if_pos rfl])

/-- A `[1, b]` row repeated over `a` rows reads, at `(p, q)`, the row at `(0, q)`. -/
theorem bid_1b_ab_apply {a b : ℕ} (v : (⟨2, ![1, b]⟩ : Shape).Idx → α)
    (h : (⟨2, ![1, b]⟩ : Shape).BroadcastsInDim ⟨2, ![a, b]⟩ (![0, 1] : Fin 2 → Fin 2)) (p : Fin a) (q : Fin b) :
    broadcastInDim ⟨2, ![a, b]⟩ ![0, 1] h v (ix2 p q) = v (ix2 (0 : Fin 1) q) :=
  broadcastInDim_apply _ h v (ix2 p q) (ix2 (0 : Fin 1) q) (fun d => by
    match d with
    | ⟨0, _⟩ =>
      show (0 : ℕ) = if (1 : ℕ) = 1 then 0 else p.val
      rw [if_pos rfl]
    | ⟨1, _⟩ =>
      show q.val = if b = 1 then 0 else q.val
      split_ifs with h1
      · have := q.isLt; omega
      · rfl)

/-- A scalar repeated over any shape reads the scalar everywhere. -/
theorem bid_scalar_apply {t : Shape} (v : (⟨0, ![]⟩ : Shape).Idx → α)
    (h : (⟨0, ![]⟩ : Shape).BroadcastsInDim t (![] : Fin 0 → Fin t.rank)) (j : t.Idx) :
    broadcastInDim t ![] h v j = v ix0 :=
  broadcastInDim_apply _ h v j ix0 (fun d => d.elim0)

/-- A length-`a` vector cast to an `[a, 1]` column reads, at `(p, u)`, the vector at `p`. -/
theorem shapeCast_a_a1_apply {a : ℕ} (v : (⟨1, ![a]⟩ : Shape).Idx → α)
    (h : (⟨1, ![a]⟩ : Shape).ShapeCasts ⟨2, ![a, 1]⟩) (p : Fin a) (u : Fin 1) :
    shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    rw [hu, Nat.mul_one, Nat.add_zero])

end Cert.LibBcast
-- ==== Proof.LibHostRowSum.lean ====
/-
  The host's sum along the columns of a matrix, read at a row.

  On the extended reals a host reduction with `add` along axis 1 of an `[a, b]` matrix, started from a scalar, has at row
  `p` the value "the scalar plus the sum of the `b` entries of row `p`": there is no rounding and no order of summation.
-/
import Idealize.ShloMosaic.Lib.ValueIdx
import Idealize.ShloMosaic.PureOps.Ideal.Laws

namespace Cert.LibHostRowSum

open Idealize.ShloMosaic Idealize.ShloMosaic.ValueIdx

/-- The host's sum along the columns of an `[a, b]` matrix from an initial scalar, at row `p`. -/
theorem hostRowSum_apply {a b : ℕ} {φ : FTy} (x : FVec Ideal ⟨2, ![a, b]⟩ φ) (init : (⟨0, ![]⟩ : Shape).Idx → Ideal φ)
    (h' : (⟨2, ![a, b]⟩ : Shape).ReducesTo [1] ⟨1, ![a]⟩) (h : (⟨2, ![a, b]⟩ : Shape).Reduces [1] ⟨1, ![a]⟩)
    (hS : 0 < (⟨0, ![]⟩ : Shape).numel) (p : Fin a) :
    Host.reduceAdd x init h' hS (ix1 p) = init (Shape.Idx.first hS) + ∑ k : Fin b, x (ix2 p k) := by
  simp only [Host.reduceAdd, Ideal.hostReduceAdd_def]
  rw [Ideal.hostReduceAdd_single h' h]
  exact congrArg (_ + ·) (Finset.sum_congr rfl fun k _ => congrArg x
    (funext fun ax => Fin.ext (by match ax with | ⟨0, _⟩ => rfl | ⟨1, _⟩ => rfl)))

end Cert.LibHostRowSum
-- ==== Proof.Blocks.lean ====
import proofs.«179468_j18863496364430_2_alg».proof.Proof.Gen.KernelIdeal.Frame
import proofs.«179468_j18863496364430_2_alg».proof.Proof.LibKeepdims
import proofs.«179468_j18863496364430_2_alg».proof.Proof.LibBcast
import proofs.«179468_j18863496364430_2_alg».proof.Proof.LibHostRowSum
import Idealize.ShloMosaic.Lib.Pipeline.Value
import Idealize.ShloMosaic.Lib.StableHlo.Run
import Idealize.ShloMosaic.Lib.ValueIdx
import Idealize.ShloMosaic.Lib.ValueLayout
import Idealize.ShloMosaic.PureOps.Ideal.Laws
import proofs.«179468_j18863496364430_2_alg».proof.Proof.Gen.KernelIdeal.Points

noncomputable section

open Idealize.ShloMosaic Idealize.ShloMosaic.TcCoe Idealize.SL.Sem Idealize.ShloMosaic.ValueIdx Idealize.ShloMosaic.StableHlo

/-
  Where each grid point reads.

  The grid has 8 × 16 points, visited row by row: point `t` has coordinates `(i, k) = (t / 16, t mod 16)`. At it the kernel
  is handed rows `1024·i … 1024·i + 1023` of the query points (and of their pre-scaled squared norms), and rows
  `2048·k … 2048·k + 2047` of the training points (and the matching stretch of the pre-scaled squared norms and of the
  weights, both laid out as one long row). The pre-scaled squared norm of a row `x` is `(−½)·(0 + ∑ x·x)`, computed on the
  host before the kernel is launched; the weights' row is the weight column re-laid.
-/

namespace Cert.KernelIdeal.Blocks

open Cert.KernelIdeal Cert.KernelIdeal.Gen

variable (m : (ℓ : Loc nD τ sig) → Buf (Elt Ideal) ℓ)

/-- The three argument arrays on core `c`, as arrays of extended reals. -/
abbrev argX (c : Dev nD) : S8192x128.Idx → EReal := m ((c : Thread nD τ).loc main_arg0)
abbrev argY (c : Dev nD) : S32768x128.Idx → EReal := m ((c : Thread nD τ).loc main_arg1)
abbrev argW (c : Dev nD) : S32768x1.Idx → EReal := m ((c : Thread nD τ).loc main_arg2)

/-- The block index of each window at point `t`, in closed form: decided over the 128 points. -/
theorem idx_facts : ∀ t : Fin cfg0.N,
    win0_0.index t (0 : Fin 2) = t.val / 16 ∧ win0_0.index t (1 : Fin 2) = 0
    ∧ win0_1.index t (0 : Fin 2) = t.val % 16 ∧ win0_1.index t (1 : Fin 2) = 0
    ∧ win0_2.index t (0 : Fin 2) = t.val / 16 ∧ win0_2.index t (1 : Fin 2) = 0
    ∧ win0_3.index t (0 : Fin 2) = 0 ∧ win0_3.index t (1 : Fin 2) = t.val % 16
    ∧ win0_4.index t (0 : Fin 2) = 0 ∧ win0_4.index t (1 : Fin 2) = t.val % 16
    ∧ win0_5.index t (0 : Fin 2) = t.val / 16 ∧ win0_5.index t (1 : Fin 2) = 0 :=
  (by decide +kernel : ∀ t : Fin grid0.N, _)

theorem lt128 (t : Fin cfg0.N) : t.val < 128 := lt_of_lt_of_eq t.isLt (show cfg0.N = 128 from N_0)

/-- Row `r` of point `t`'s query block, as a row of the whole array. -/
def qrow (t : Fin cfg0.N) (r : Fin 1024) : Fin 8192 := ⟨1024 * (t.val / 16) + r.val, by have := lt128 t; omega⟩
/-- Row `j` of point `t`'s training block, as a row of the whole array. -/
def trow (t : Fin cfg0.N) (j : Fin 2048) : Fin 32768 := ⟨2048 * (t.val % 16) + j.val, by have := lt128 t; omega⟩

/-! ## The five input blocks, read through their windows -/

theorem blk0 (c : Dev nD) (t : Fin cfg0.N) (r : Fin 1024) (d : Fin 128) :
    (iblk m c 0 t : Vec Ideal S1024x128 .f32) (ix2 r d) = argX m c (ix2 (qrow t r) d) := by
  obtain ⟨e0, e1, -⟩ := idx_facts t
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t (0 : Fin 2) * 1024 + 1 * r.val = 1024 * (t.val / 16) + r.val; rw [e0]; omega
  | ⟨1, _⟩ => show win0_0.index t (1 : Fin 2) * 128 + 1 * d.val = d.val; rw [e1]; omega

theorem blk1 (c : Dev nD) (t : Fin cfg0.N) (j : Fin 2048) (d : Fin 128) :
    (iblk m c 1 t : Vec Ideal S2048x128 .f32) (ix2 j d) = argY m c (ix2 (trow t j) d) := by
  obtain ⟨-, -, e0, e1, -⟩ := idx_facts t
  unfold iblk
  rw [View.read_apply]
  show V m c main_arg1 _ = _
  rw [V_main_arg1]
  refine congrArg (m ((c : Thread nD τ).loc main_arg1)) (funext fun a => Fin.ext ?_)
  match a with
  | ⟨0, _⟩ => show win0_1.index t (0 : Fin 2) * 2048 + 1 * j.val = 2048 * (t.val % 16) + j.val; rw [e0]; omega
  | ⟨1, _⟩ => show win0_1.index t (1 : Fin 2) * 128 + 1 * d.val = d.val; rw [e1]; omega

theorem blk2 (c : Dev nD) (t : Fin cfg0.N) (r : Fin 1024) (u : Fin 1) :
    (iblk m c 2 t : Vec Ideal S1024x1 .f32) (ix2 r u) = (V m c main_v4 : S8192x1.Idx → Ideal .f32) (ix2 (qrow t r) u) := by
  obtain ⟨-, -, -, -, e0, e1, -⟩ := idx_facts t
  unfold iblk
  rw [View.read_apply]
  show V m c main_v4 _ = _
  refine congrArg (V m c main_v4) (funext fun a => Fin.ext ?_)
  match a with
  | ⟨0, _⟩ => show win0_2.index t (0 : Fin 2) * 1024 + 1 * r.val = 1024 * (t.val / 16) + r.val; rw [e0]; omega
  | ⟨1, _⟩ => show win0_2.index t (1 : Fin 2) * 1 + 1 * u.val = u.val; rw [e1]; omega

theorem blk3 (c : Dev nD) (t : Fin cfg0.N) (u : Fin 1) (j : Fin 2048) :
    (iblk m c 3 t : Vec Ideal S1x2048 .f32) (ix2 u j) = (V m c main_v9 : S1x32768.Idx → Ideal .f32) (ix2 u (trow t j)) := by
  obtain ⟨-, -, -, -, -, -, e0, e1, -⟩ := idx_facts t
  unfold iblk
  rw [View.read_apply]
  show V m c main_v9 _ = _
  refine congrArg (V m c main_v9) (funext fun a => Fin.ext ?_)
  match a with
  | ⟨0, _⟩ => show win0_3.index t (0 : Fin 2) * 1 + 1 * u.val = u.val; rw [e0]; omega
  | ⟨1, _⟩ => show win0_3.index t (1 : Fin 2) * 2048 + 1 * j.val = 2048 * (t.val % 16) + j.val; rw [e1]; omega

theorem blk4 (c : Dev nD) (t : Fin cfg0.N) (u : Fin 1) (j : Fin 2048) :
    (iblk m c 4 t : Vec Ideal S1x2048 .f32) (ix2 u j) = (V m c main_v10 : S1x32768.Idx → Ideal .f32) (ix2 u (trow t j)) := by
  obtain ⟨-, -, -, -, -, -, -, -, e0, e1, -⟩ := idx_facts t
  unfold iblk
  rw [View.read_apply]
  show V m c main_v10 _ = _
  refine congrArg (V m c main_v10) (funext fun a => Fin.ext ?_)
  match a with
  | ⟨0, _⟩ => show win0_4.index t (0 : Fin 2) * 1 + 1 * u.val = u.val; rw [e0]; omega
  | ⟨1, _⟩ => show win0_4.index t (1 : Fin 2) * 2048 + 1 * j.val = 2048 * (t.val % 16) + j.val; rw [e1]; omega

/-! ## The host prefix: the arrays the region finds for windows 2, 3, 4 -/

theorem V_hx (c : Dev nD) : (V m c main_v4 : S8192x1.Idx → Ideal .f32)
    = mulf (broadcastInDim S8192x1 ![] bcast_S_S8192x1 (constant (F := Ideal) S_ .f32 0xBF000000#32))
        (broadcastInDim S8192x1 ![0] bcast_S8192_S8192x1_0
          (Host.reduceAdd (mulf (m ((c : Thread nD τ).loc main_arg0)) (m ((c : Thread nD τ).loc main_arg0)))
            (constant (F := Ideal) S_ .f32 0x00000000#32) reducesTo_S8192x128_S8192_d1 h_S_)) := by
  dsimp only [V, hostOps0]
  after_results
  try rfl

theorem V_hy (c : Dev nD) : (V m c main_v9 : S1x32768.Idx → Ideal .f32)
    = shapeCast S1x32768 (mulf (broadcastInDim S32768 ![] bcast_S_S32768 (constant (F := Ideal) S_ .f32 0xBF000000#32))
          (Host.reduceAdd (mulf (m ((c : Thread nD τ).loc main_arg1)) (m ((c : Thread nD τ).loc main_arg1)))
            (constant (F := Ideal) S_ .f32 0x00000000#32) reducesTo_S32768x128_S32768_d1 h_S_)) shapeCasts_S32768_S1x32768 := by
  dsimp only [V, hostOps0]
  after_results
  try rfl

theorem V_w (c : Dev nD) : (V m c main_v10 : S1x32768.Idx → Ideal .f32)
    = shapeCast S1x32768 (m ((c : Thread nD τ).loc main_arg2)) shapeCasts_S32768x1_S1x32768 := by
  dsimp only [V, hostOps0]
  after_results
  try rfl

/-- The pre-scaled squared norm of query row `n`. -/
theorem hx_apply (c : Dev nD) (n : Fin 8192) (u : Fin 1) :
    (V m c main_v4 : S8192x1.Idx → Ideal .f32) (ix2 n u)
      = Ideal.ofBits .f32 0xBF000000#32 * (Ideal.ofBits .f32 0x00000000#32
          + ∑ d : Fin 128, argX m c (ix2 n d) * argX m c (ix2 n d)) := by
  rw [V_hx, mulf_apply, Cert.LibBcast.bid_scalar_apply, Cert.LibBcast.bid_col_apply,
    Cert.LibHostRowSum.hostRowSum_apply _ _ reducesTo_S8192x128_S8192_d1 (by decide) h_S_ n]
  rfl

/-- The pre-scaled squared norm of training row `q`. -/
theorem hy_apply (c : Dev nD) (u : Fin 1) (q : Fin 32768) :
    (V m c main_v9 : S1x32768.Idx → Ideal .f32) (ix2 u q)
      = Ideal.ofBits .f32 0xBF000000#32 * (Ideal.ofBits .f32 0x00000000#32
          + ∑ d : Fin 128, argY m c (ix2 q d) * argY m c (ix2 q d)) := by
  rw [V_hy, shapeCast_a_1a_apply, mulf_apply, Cert.LibBcast.bid_scalar_apply,
    Cert.LibHostRowSum.hostRowSum_apply _ _ reducesTo_S32768x128_S32768_d1 (by decide) h_S_ q]
  rfl

/-- The weight of training row `q`. -/
theorem w_apply (c : Dev nD) (u : Fin 1) (q : Fin 32768) :
    (V m c main_v10 : S1x32768.Idx → Ideal .f32) (ix2 u q) = argW m c (ix2 q (0 : Fin 1)) := by
  rw [V_w]
  refine shapeCast_apply _ _ _ _ ?_
  have hu : u.val = 0 := by omega
  show (S32768x1.rowMajor (ix2 q (0 : Fin 1))).val = (S1x32768.rowMajor (ix2 u q)).val
  rw [Shape.rowMajor_val_two, Shape.rowMajor_val_two]
  show q.val * 1 + 0 = u.val * 32768 + q.val
  rw [hu]; omega

end Cert.KernelIdeal.Blocks

end
-- ==== Proof.ClampLaw.lean ====
/-
  The one law of real arithmetic that joins the two programs: for real numbers c (a dot product of two rows) and
  a, b (the rows' squared norms),
      min (c + (-1/2) * a + (-1/2) * b) 0 = -(max (a + b - 2 * c) 0) / 2,
  that is, half the negated clamped squared distance is the clamped "cross minus half norms" form.
-/
import Mathlib.Data.Real.Basic
import Mathlib.Order.Lattice
import Mathlib.Tactic.Linarith
import Mathlib.Tactic.Ring

namespace Cert.ClampLaw

/-- Negating and halving commutes with clamping: `min (c - a/2 - b/2) 0 = -(max (a + b - 2c) 0) / 2` over the reals. -/
theorem min_half_eq_neg_max_half (c a b : ℝ) :
    min (c + (-1/2 : ℝ) * a + (-1/2 : ℝ) * b) 0 = -(max (a + b - 2 * c) 0) / 2 := by
  rcases le_total (a + b - 2 * c) 0 with h | h
  · rw [max_eq_right h, min_eq_right (by linarith)]; ring
  · rw [max_eq_left h, min_eq_left (by linarith)]; ring

end Cert.ClampLaw
-- ==== Proof.Consts.lean ====
/-
  The float literals the two programs spell, as the extended reals their words denote: the kernel's host prefix
  scales the squared norms by `-0.5`; the reference multiplies the dot product by `2.0` and divides by `2.0`.
  Both are dyadic, so the words denote exactly `-1/2` and `2`.
-/
import Idealize.ShloMosaic.PureOps.Ideal

noncomputable section

namespace Cert.Consts

open Idealize.ShloMosaic

/-- The word of `-0.5` denotes the real `-1/2`. -/
theorem ofBits_neg_half : Ideal.ofBits .f32 0xBF000000#32 = (((-1/2 : ℝ)) : EReal) := by
  simp [Ideal.ofBits, Ideal.ieee, -EReal.coe_mul, -EReal.coe_neg]; norm_num

/-- The word of `2.0` denotes the real `2`. -/
theorem ofBits_two : Ideal.ofBits .f32 0x40000000#32 = ((2 : ℝ) : EReal) := by
  simp [Ideal.ofBits, Ideal.ieee, -EReal.coe_mul]; norm_num

/-- The word of `+0.0` denotes `0`. -/
theorem ofBits_zero : Ideal.ofBits .f32 0x00000000#32 = 0 := by
  simp [Ideal.ofBits, Ideal.ieee]

end Cert.Consts

end
-- ==== Proof.LibERealCoe.lean ====
/-
  The reals inside the extended reals.

  The inclusion of the real numbers into the extended reals is an order embedding and an additive map on the reals, so
  it commutes with finite sums, with `min` and with `max`: an expression built from real entries by these operations may
  be computed in the reals and included afterwards.
-/
import Mathlib.Data.EReal.Operations
import Mathlib.Algebra.BigOperators.Fin

namespace Cert.LibERealCoe

/-- The inclusion of the reals commutes with a finite sum. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The inclusion of the reals commutes with `min`. -/
theorem coe_min (a b : ℝ) : ((min a b : ℝ) : EReal) = min (a : EReal) (b : EReal) :=
  (EReal.coe_strictMono.monotone).map_min

/-- The inclusion of the reals commutes with `max`. -/
theorem coe_max (a b : ℝ) : ((max a b : ℝ) : EReal) = max (a : EReal) (b : EReal) :=
  (EReal.coe_strictMono.monotone).map_max

end Cert.LibERealCoe
-- ==== Proof.RowLaw.lean ====
/-
  The law between the two programs at one pair of rows.

  For a row `x` of the query points and a row `y` of the training points, both of real entries, write `c = ∑ x·y`,
  `a = ∑ x·x`, `b = ∑ y·y`. The kernel forms the clamp argument as
      min (((c + ∑ x·(y − y)) + ∑ (x − x)·y) + (−½)·(0 + a) + (−½)·(0 + b)) 0
  (its two residual products are sums of zeros, because `y − y = 0` and `x − x = 0` for REAL entries — at an infinite
  entry they are not), and the reference forms
      (−max (((0 + a) + (0 + b)) − 2·c) 0) / 2.
  Over the reals these are one number: `min (c − a/2 − b/2) 0 = −max (a + b − 2c) 0 / 2`.
-/
import proofs.«179468_j18863496364430_2_alg».proof.Proof.ClampLaw
import proofs.«179468_j18863496364430_2_alg».proof.Proof.Consts
import proofs.«179468_j18863496364430_2_alg».proof.Proof.LibERealCoe

noncomputable section

namespace Cert.RowLaw

open Idealize.ShloMosaic Cert.LibERealCoe

/-- The kernel's clamp argument at a pair of rows: the three partial products, plus the two pre-scaled squared norms
    (each a host sum from the zero word), clamped at the zero word from above. -/
def kerArg (x y : Fin 128 → EReal) : EReal :=
  min (((((∑ d, x d * y d) + (∑ d, x d * (y d - y d))) + (∑ d, (x d - x d) * y d))
      + Ideal.ofBits .f32 0xBF000000#32 * (Ideal.ofBits .f32 0x00000000#32 + ∑ d, x d * x d))
      + Ideal.ofBits .f32 0xBF000000#32 * (Ideal.ofBits .f32 0x00000000#32 + ∑ d, y d * y d))
    (Ideal.ofBits .f32 0x00000000#32)

/-- The reference's exponent at a pair of rows: the clamped squared distance, negated and halved. -/
def refArg (x y : Fin 128 → EReal) : EReal :=
  Ideal.div (-(max (((Ideal.ofBits .f32 0x00000000#32 + ∑ d, x d * x d) + (Ideal.ofBits .f32 0x00000000#32 + ∑ d, y d * y d))
      - Ideal.ofBits .f32 0x40000000#32 * ∑ d, x d * y d) (Ideal.ofBits .f32 0x00000000#32)))
    (Ideal.ofBits .f32 0x40000000#32)

/-- On rows of real entries the two are one extended real. -/
theorem kerArg_eq_refArg (X Y : Fin 128 → ℝ) :
    kerArg (fun d => (X d : EReal)) (fun d => (Y d : EReal)) = refArg (fun d => (X d : EReal)) (fun d => (Y d : EReal)) := by
  unfold kerArg refArg
  rw [Cert.Consts.ofBits_neg_half, Cert.Consts.ofBits_two, Cert.Consts.ofBits_zero,
    Ideal.div_coe (by norm_num : (2 : ℝ) ≠ 0)]
  have e1 : (∑ d, (X d : EReal) * (Y d : EReal)) = ((∑ d, X d * Y d : ℝ) : EReal) := by
    rw [coe_sum]; exact Finset.sum_congr rfl fun d _ => (EReal.coe_mul _ _).symm
  have e2 : (∑ d, (X d : EReal) * (X d : EReal)) = ((∑ d, X d * X d : ℝ) : EReal) := by
    rw [coe_sum]; exact Finset.sum_congr rfl fun d _ => (EReal.coe_mul _ _).symm
  have e3 : (∑ d, (Y d : EReal) * (Y d : EReal)) = ((∑ d, Y d * Y d : ℝ) : EReal) := by
    rw [coe_sum]; exact Finset.sum_congr rfl fun d _ => (EReal.coe_mul _ _).symm
  have e4 : (∑ d, (X d : EReal) * ((Y d : EReal) - (Y d : EReal))) = 0 :=
    Finset.sum_eq_zero fun d _ => by rw [← EReal.coe_sub, sub_self, EReal.coe_zero, mul_zero]
  have e5 : (∑ d, ((X d : EReal) - (X d : EReal)) * (Y d : EReal)) = 0 :=
    Finset.sum_eq_zero fun d _ => by rw [← EReal.coe_sub, sub_self, EReal.coe_zero, zero_mul]
  rw [e1, e2, e3, e4, e5, add_zero, add_zero, zero_add, zero_add]
  rw [← EReal.coe_zero, ← EReal.coe_mul, ← EReal.coe_mul, ← EReal.coe_mul, ← EReal.coe_add, ← EReal.coe_add, ← EReal.coe_add,
    ← EReal.coe_sub, ← coe_min, ← coe_max, ← EReal.coe_neg, ← EReal.coe_mul]
  refine congrArg _ ?_
  rw [Cert.ClampLaw.min_half_eq_neg_max_half]
  ring

end Cert.RowLaw

end
-- ==== Proof.LibTileSum.lean ====
/-
  Sums over a range cut into equal blocks, and over a square cut into square tiles.

  In a commutative monoid the order and grouping of a finite sum are free. So the sum of `g` over the `A · B` indices
  `0 … A·B − 1` is the sum, over the `A` blocks, of the sum over the `B` indices `B·i … B·i + B − 1` of block `i`; and the sum of
  `f` over a square of side `A · B` is the sum over its `A × A` tiles of the sum over the `B × B` entries of each tile.
  Likewise the sum over the points `t = B·i + j` of an `A × B` grid visited row by row is the double sum over `(i, j)`.
  Only associativity and commutativity of `+` are used, so the laws hold on the extended reals whatever the terms are.
-/
import Mathlib.Algebra.BigOperators.Fin
import Mathlib.Algebra.BigOperators.Intervals
import Mathlib.Logic.Equiv.Fin.Basic
import Mathlib.Tactic

namespace Cert.LibTileSum

open Finset

/-- Index `r` of block `i` lies below `A · B`. -/
theorem blk_lt {A B : ℕ} (i : Fin A) (r : Fin B) : B * i.val + r.val < A * B := by
  have h1 : B * (i.val + 1) ≤ B * A := Nat.mul_le_mul_left B i.isLt
  have h2 := r.isLt
  rw [Nat.mul_add, Nat.mul_one] at h1
  rw [Nat.mul_comm A B]
  omega

/-- Index `r` of block `i`, as an index of the whole range. -/
def blk {A B N : ℕ} (h : A * B = N) (i : Fin A) (r : Fin B) : Fin N := ⟨B * i.val + r.val, h ▸ blk_lt i r⟩

@[simp] theorem blk_val {A B N : ℕ} (h : A * B = N) (i : Fin A) (r : Fin B) : (blk h i r).val = B * i.val + r.val := rfl

/-- A sum over `A · B` indices, taken block by block. -/
theorem sum_blocks {M : Type*} [AddCommMonoid M] {A B N : ℕ} (h : A * B = N) (g : Fin N → M) :
    ∑ x : Fin N, g x = ∑ i : Fin A, ∑ r : Fin B, g (blk h i r) := by
  subst h
  rw [← Equiv.sum_comp finProdFinEquiv g, Fintype.sum_prod_type]
  refine Finset.sum_congr rfl fun i _ => Finset.sum_congr rfl fun r _ => congrArg g (Fin.ext ?_)
  show r.val + B * i.val = B * i.val + r.val
  exact Nat.add_comm _ _

/-- A sum over a square of side `A · B`, taken tile by tile. -/
theorem sum_tiles {M : Type*} [AddCommMonoid M] {A B N : ℕ} (h : A * B = N) (f : Fin N → Fin N → M) :
    ∑ x : Fin N, ∑ y : Fin N, f x y
      = ∑ i : Fin A, ∑ j : Fin A, ∑ r : Fin B, ∑ c : Fin B, f (blk h i r) (blk h j c) := by
  calc ∑ x : Fin N, ∑ y : Fin N, f x y
      = ∑ i : Fin A, ∑ r : Fin B, ∑ y : Fin N, f (blk h i r) y := sum_blocks h _
    _ = ∑ i : Fin A, ∑ r : Fin B, ∑ j : Fin A, ∑ c : Fin B, f (blk h i r) (blk h j c) :=
        Finset.sum_congr rfl fun i _ => Finset.sum_congr rfl fun r _ => sum_blocks h _
    _ = ∑ i : Fin A, ∑ j : Fin A, ∑ r : Fin B, ∑ c : Fin B, f (blk h i r) (blk h j c) :=
        Finset.sum_congr rfl fun i _ => Finset.sum_comm

/-- A sum over the points of an `A × B` grid visited row by row (point `t` has coordinates `(t / B mod A, t mod B)`)
    is the double sum over the coordinates. -/
theorem sum_rowMajor {M : Type*} [AddCommMonoid M] {A B N : ℕ} (h : A * B = N) (hA : 0 < A) (hB : 0 < B)
    (g : Fin A → Fin B → M) :
    ∑ t : Fin N, g ⟨t.val / B % A, Nat.mod_lt _ hA⟩ ⟨t.val % B, Nat.mod_lt _ hB⟩ = ∑ i : Fin A, ∑ j : Fin B, g i j := by
  rw [sum_blocks h]
  refine Finset.sum_congr rfl fun i _ => Finset.sum_congr rfl fun j _ => ?_
  have e1 : (B * i.val + j.val) / B = i.val := by
    rw [Nat.add_comm, Nat.add_mul_div_left _ _ hB, Nat.div_eq_of_lt j.isLt, Nat.zero_add]
  have e2 : (B * i.val + j.val) % B = j.val := by
    rw [Nat.add_comm, Nat.add_mul_mod_self_left, Nat.mod_eq_of_lt j.isLt]
  congr 1
  · exact Fin.ext (by show (B * i.val + j.val) / B % A = i.val; rw [e1, Nat.mod_eq_of_lt i.isLt])
  · exact Fin.ext (by show (B * i.val + j.val) % B = j.val; exact e2)

end Cert.LibTileSum
-- ==== Proof.Spec.lean ====
/-
  The function both programs compute.

  For query rows `x_n` (n < 8192), training rows `y_q` (q < 32768) and weights `w_q`, the result at row `n` is
      ∑_q exp (a(x_n, y_q)) · w_q,
  a Gaussian-kernel prediction, where the exponent `a` is minus half the clamped squared distance of the two rows. The
  kernel forms the exponent as `RowLaw.kerArg` and sums tile by tile — 16 stretches of 2048 training rows —, the
  reference forms it as `RowLaw.refArg` and sums in one go. The grouping of a finite sum is free on the extended reals,
  and on rows of real entries the two exponents are one number (`RowLaw.kerArg_eq_refArg`).
-/
import proofs.«179468_j18863496364430_2_alg».proof.Proof.RowLaw
import proofs.«179468_j18863496364430_2_alg».proof.Proof.LibTileSum
import Idealize.ShloMosaic.Lib.ValueIdx
import Idealize.ShloMosaic.PureOps.Ideal

noncomputable section

namespace Cert.Spec

open Idealize.ShloMosaic Idealize.ShloMosaic.ValueIdx

abbrev XArr := (⟨2, ![8192, 128]⟩ : Shape).Idx → EReal
abbrev YArr := (⟨2, ![32768, 128]⟩ : Shape).Idx → EReal
abbrev WArr := (⟨2, ![32768, 1]⟩ : Shape).Idx → EReal
abbrev OArr := (⟨2, ![8192, 1]⟩ : Shape).Idx → EReal

/-- One training row's contribution to query row `n`, with the exponent as the kernel forms it. -/
def kerTerm (X : XArr) (Y : YArr) (W : WArr) (n : Fin 8192) (q : Fin 32768) : EReal :=
  Ideal.exp (Cert.RowLaw.kerArg (fun d => X (ix2 n d)) (fun d => Y (ix2 q d))) * W (ix2 q (0 : Fin 1))

/-- The same contribution with the exponent as the reference forms it. -/
def refTerm (X : XArr) (Y : YArr) (W : WArr) (n : Fin 8192) (q : Fin 32768) : EReal :=
  Ideal.exp (Cert.RowLaw.refArg (fun d => X (ix2 n d)) (fun d => Y (ix2 q d))) * W (ix2 q (0 : Fin 1))

/-- Every entry of the array is a real number. -/
def AllReal {s : Shape} (A : s.Idx → EReal) : Prop := ∀ i, ∃ r : ℝ, A i = (r : EReal)

theorem kerTerm_eq_refTerm {X : XArr} {Y : YArr} (W : WArr) (hX : AllReal X) (hY : AllReal Y) (n : Fin 8192) (q : Fin 32768) :
    kerTerm X Y W n q = refTerm X Y W n q := by
  choose Xr hXr using hX
  choose Yr hYr using hY
  unfold kerTerm refTerm
  have e1 : (fun d : Fin 128 => X (ix2 n d)) = fun d => ((Xr (ix2 n d) : ℝ) : EReal) := funext fun d => hXr _
  have e2 : (fun d : Fin 128 => Y (ix2 q d)) = fun d => ((Yr (ix2 q d) : ℝ) : EReal) := funext fun d => hYr _
  rw [e1, e2, Cert.RowLaw.kerArg_eq_refArg]

theorem tiles : 16 * 2048 = 32768 := by norm_num

/-- Query row `n`'s result as the kernel accumulates it: over the 16 stretches, the sum over each stretch's 2048 rows. -/
def rowVal (X : XArr) (Y : YArr) (W : WArr) (n : Fin 8192) : EReal :=
  ∑ k : Fin 16, ∑ j : Fin 2048, kerTerm X Y W n (Cert.LibTileSum.blk tiles k j)

/-- The kernel's result array. -/
def G (X : XArr) (Y : YArr) (W : WArr) : OArr := fun i => rowVal X Y W (i 0)

/-- The reference's result array: one sum over all training rows. -/
def R (X : XArr) (Y : YArr) (W : WArr) : OArr := fun i => ∑ q : Fin 32768, refTerm X Y W (i 0) q

/-- On arrays of real entries the two result arrays are equal. -/
theorem G_eq_R {X : XArr} {Y : YArr} (W : WArr) (hX : AllReal X) (hY : AllReal Y) : G X Y W = R X Y W := by
  funext i
  unfold G R rowVal
  rw [Cert.LibTileSum.sum_blocks tiles]
  exact Finset.sum_congr rfl fun k _ => Finset.sum_congr rfl fun j _ => kerTerm_eq_refTerm W hX hY _ _

end Cert.Spec

end
-- ==== Proof.Accum.lean ====
import proofs.«179468_j18863496364430_2_alg».proof.Proof.Pieces
import proofs.«179468_j18863496364430_2_alg».proof.Proof.TileRow
import proofs.«179468_j18863496364430_2_alg».proof.Proof.Blocks
import proofs.«179468_j18863496364430_2_alg».proof.Proof.Spec
import proofs.«179468_j18863496364430_2_alg».proof.Proof.Gen.KernelIdeal.Value

noncomputable section

open Idealize.ShloMosaic Idealize.ShloMosaic.TcCoe Idealize.SL.Sem Idealize.ShloMosaic.ValueIdx

/-
  The running column over a row of the grid.

  Point `t = 16·i + k` adds to row `r` of the running column the sum, over the 2048 training rows of stretch `k`, of their
  contributions to query row `1024·i + r`. The column is reset at `k = 0`, so after point `t` it holds the sum of the
  addends of the points `16·i, …, 16·i + k`; and at `k = 15` the output block is a copy of the column.
-/

namespace Cert.KernelIdeal.Accum

open Cert.KernelIdeal Cert.KernelIdeal.Gen Cert.KernelIdeal.Blocks Cert.Spec

variable (m : (ℓ : Loc nD τ sig) → Buf (Elt Ideal) ℓ)

/-- What grid point `n` adds to the running column at index `y` (zero past the grid, where it is never used). -/
def addend (c : Dev nD) (n : ℕ) (y : S1024x1.Idx) : EReal :=
  if h : n < cfg0.N then
    ∑ j : Fin 2048, kerTerm (argX m c) (argY m c) (argW m c) (qrow ⟨n, h⟩ (y 0)) (trow ⟨n, h⟩ j)
  else 0

/-- The step at point `t` over any column found: that column plus the point's addend. -/
theorem step_point (c : Dev nD) (t : Fin cfg0.N) (acc : Vec Ideal S1024x1 .f32) (y : S1024x1.Idx) :
    Cert.KernelIdeal.Pieces.step (F := Ideal) (iblk m c 0 t) (iblk m c 1 t) (iblk m c 2 t) (iblk m c 3 t) (iblk m c 4 t) acc y = acc y + addend m c t.val y := by
  obtain ⟨r, u, rfl⟩ : ∃ (r : Fin 1024) (u : Fin 1), y = ix2 r u := ⟨y 0, y 1, eq_ix2 y⟩
  refine (Cert.KernelIdeal.TileRow.step_apply (iblk m c 0 t) (iblk m c 1 t) (iblk m c 2 t) (iblk m c 3 t) (iblk m c 4 t) acc r u).trans ?_
  unfold addend
  rw [dif_pos t.isLt]
  refine congrArg (acc (ix2 r u) + ·) (Finset.sum_congr rfl fun j _ => ?_)
  unfold kerTerm Cert.RowLaw.kerArg
  simp only [blk0 m c t, blk1 m c t, blk2 m c t, blk3 m c t, blk4 m c t, hx_apply m c, hy_apply m c, w_apply m c]

/-- What a point leaves in the scratch over the column found: that column plus its addend, unless the point resets. -/
theorem scAt_step (c : Dev nD) (n : ℕ) (h : n < cfg0.N) (hn : ¬n % 16 = 0) (acc : Vec Ideal S1024x1 .f32) (y : S1024x1.Idx) :
    Cert.KernelIdeal.Value.scAt0_0 m c n h acc y = acc y + addend m c n y := by
  unfold Cert.KernelIdeal.Value.scAt0_0
  rw [dif_neg hn]
  by_cases h1 : n % 16 = 15
  · rw [dif_pos h1]
    exact (congrFun (Cert.KernelIdeal.Pieces.sout_C (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) (ms0_5 (⟨n, h⟩ : Fin cfg0.N)) (hs0_5 (⟨n, h⟩ : Fin cfg0.N)) scM0_0 (Memref.isWhole_whole _) (fun hh => hn ((hcond0_0 (⟨n, h⟩ : Fin cfg0.N)).mp hh)) ((hcond0_1 (⟨n, h⟩ : Fin cfg0.N)).mpr h1)
      (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) (iblk m c 4 (⟨n, h⟩ : Fin cfg0.N)) acc) y).trans (step_point m c ⟨n, h⟩ acc y)
  · rw [dif_neg h1]
    exact (congrFun (Cert.KernelIdeal.Pieces.sout_B (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) (ms0_5 (⟨n, h⟩ : Fin cfg0.N)) (hs0_5 (⟨n, h⟩ : Fin cfg0.N)) scM0_0 (Memref.isWhole_whole _) (fun hh => hn ((hcond0_0 (⟨n, h⟩ : Fin cfg0.N)).mp hh)) (fun hh => h1 ((hcond0_1 (⟨n, h⟩ : Fin cfg0.N)).mp hh))
      (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) (iblk m c 4 (⟨n, h⟩ : Fin cfg0.N)) acc) y).trans (step_point m c ⟨n, h⟩ acc y)

/-- At a resetting point the column found does not enter: the scratch ends at the addend alone. -/
theorem scAt_reset (c : Dev nD) (n : ℕ) (h : n < cfg0.N) (hn : n % 16 = 0) (acc : Vec Ideal S1024x1 .f32) (y : S1024x1.Idx) :
    Cert.KernelIdeal.Value.scAt0_0 m c n h acc y = 0 + addend m c n y := by
  have h1 : ¬n % 16 = 15 := by omega
  unfold Cert.KernelIdeal.Value.scAt0_0
  rw [dif_pos hn, dif_neg h1]
  refine (congrFun (Cert.KernelIdeal.Pieces.sout_A (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) (ms0_5 (⟨n, h⟩ : Fin cfg0.N)) (hs0_5 (⟨n, h⟩ : Fin cfg0.N)) scM0_0 (Memref.isWhole_whole _) ((hcond0_0 (⟨n, h⟩ : Fin cfg0.N)).mpr hn) (fun hh => h1 ((hcond0_1 (⟨n, h⟩ : Fin cfg0.N)).mp hh))
      (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) (iblk m c 4 (⟨n, h⟩ : Fin cfg0.N))) y).trans ?_
  refine (step_point m c ⟨n, h⟩ (k0_pay2 (F := Ideal)) y).trans ?_
  rw [Cert.KernelIdeal.TileRow.zero_col_apply]

/-- The scratch after point `t`: the sum of the addends of the points of `t`'s grid row up to `t`. -/
theorem scratch_after (c : Dev nD) (t : Fin cfg0.N) (y : S1024x1.Idx) :
    (outsAt0 m c t.val t.isLt).2 y = ∑ s ∈ Finset.range (t.val % 16 + 1), addend m c (16 * (t.val / 16) + s) y := by
  rw [Cert.KernelIdeal.Value.soutsAt0_0_eq m c t]
  refine (Pipeline.accAt_add_apply (N := cfg0.N) (ι := S1024x1.Idx) (β := EReal)
    (fun n h => Cert.KernelIdeal.Value.scAt0_0 m c n h (VS0_0.read (Elt Ideal) VS0_0.junk)) (Cert.KernelIdeal.Value.scAt0_0 m c)
    (fun _ => 0) (addend m c) (16 * (t.val / 16)) 15
    (fun h i => scAt_reset m c _ h (by omega) _ i)
    (fun n h acc i hb he => scAt_step m c n h (by omega) acc i)
    (t.val % 16) (by omega) _ y).trans ?_
  exact zero_add _

/-- At a last-`k` point the output block receives the previous column plus the point's addend: the sum of the addends
    of all 16 points of its grid row. -/
theorem out_last (c : Dev nD) (t : Fin cfg0.N) (h0 : ¬t.val % 16 = 0) (h1 : t.val % 16 = 15) (y : S1024x1.Idx) :
    out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1)
        (iblk m c 0 t) (iblk m c 1 t) (iblk m c 2 t) (iblk m c 3 t) (iblk m c 4 t) (outsAt0 m c (t.val - 1) (Nat.lt_of_le_of_lt (Nat.sub_le _ _) t.isLt)).2 y
      = ∑ s ∈ Finset.range 16, addend m c (16 * (t.val / 16) + s) y := by
  have hlt : t.val - 1 < cfg0.N := Nat.lt_of_le_of_lt (Nat.sub_le _ _) t.isLt
  refine ((congrFun (Cert.KernelIdeal.Pieces.out_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1)
      (iblk m c 0 t) (iblk m c 1 t) (iblk m c 2 t) (iblk m c 3 t) (iblk m c 4 t) (outsAt0 m c (t.val - 1) hlt).2) y).trans (step_point m c t (outsAt0 m c (t.val - 1) hlt).2 y)).trans ?_
  have hp : (outsAt0 m c (t.val - 1) hlt).2 y
      = ∑ s ∈ Finset.range ((t.val - 1) % 16 + 1), addend m c (16 * ((t.val - 1) / 16) + s) y :=
    scratch_after m c ⟨t.val - 1, hlt⟩ y
  have e1 : (t.val - 1) % 16 + 1 = 15 := by omega
  have e2 : (t.val - 1) / 16 = t.val / 16 := by omega
  have e3 : t.val = 16 * (t.val / 16) + 15 := by omega
  rw [hp, e1, e2, Finset.sum_range_succ _ 15]
  exact congrArg (_ + ·) (congrArg (fun n => addend m c n y) e3)

end Cert.KernelIdeal.Accum

end
-- ==== Proof.KernelValue.lean ====
import proofs.«179468_j18863496364430_2_alg».proof.Proof.Accum
import proofs.«179468_j18863496364430_2_alg».proof.Proof.Gen.KernelIdeal.Value
import proofs.«179468_j18863496364430_2_alg».proof.Proof.Gen.KernelIdeal.Points

noncomputable section

open Idealize.ShloMosaic Idealize.ShloMosaic.TcCoe Idealize.SL.Sem Idealize.ShloMosaic.ValueIdx
open Idealize.ShloMosaic.Pipeline (Dat)

/-
  The kernel's result array.

  The output is written back only at the last point of each row of the grid, `t = 16·i + 15`, and what is written is rows
  `1024·i … 1024·i + 1023` of the result: at each of these rows the sum of the 16 addends of grid row `i`, which is the
  row's value `∑_k ∑_j (contribution of training row 2048·k + j)`. The eight blocks tile the 8192 rows, so the array ends
  at `G` of the three arguments.
-/

namespace Cert.KernelIdeal.Final

open Cert.KernelIdeal Cert.KernelIdeal.Gen Cert.KernelIdeal.Blocks Cert.Spec

variable (m : (ℓ : Loc nD τ sig) → Buf (Elt Ideal) ℓ) (ρ : Dev nD → PrngReg)

/-- The result array on core `c`: `G` of the three argument arrays as launched. -/
abbrev result (c : Dev nD) : Buf (Elt Ideal) ((c : Thread nD τ).loc main_v11) :=
  G (argX m c) (argY m c) (argW m c)

/-- The 16 addends of `t`'s grid row, at row `y`, sum to the value of the query row that `y` is in `t`'s block. -/
theorem row_sum (c : Dev nD) (t : Fin cfg0.N) (y : S1024x1.Idx) :
    ∑ s ∈ Finset.range 16, Cert.KernelIdeal.Accum.addend m c (16 * (t.val / 16) + s) y
      = rowVal (argX m c) (argY m c) (argW m c) (qrow t (y 0)) := by
  have h128 := lt128 t
  unfold rowVal
  rw [← Fin.sum_univ_eq_sum_range (fun s => Cert.KernelIdeal.Accum.addend m c (16 * (t.val / 16) + s) y) 16]
  refine Finset.sum_congr rfl fun k _ => ?_
  have hk := k.isLt
  have hlt : 16 * (t.val / 16) + k.val < cfg0.N :=
    lt_of_lt_of_eq (by omega : 16 * (t.val / 16) + k.val < 128) (show cfg0.N = 128 from N_0).symm
  unfold Cert.KernelIdeal.Accum.addend
  rw [dif_pos hlt]
  refine Finset.sum_congr rfl fun j _ => ?_
  have eq : qrow ⟨16 * (t.val / 16) + k.val, hlt⟩ (y 0) = qrow t (y 0) :=
    Fin.ext (by show 1024 * ((16 * (t.val / 16) + k.val) / 16) + (y 0).val = 1024 * (t.val / 16) + (y 0).val; omega)
  have et : trow ⟨16 * (t.val / 16) + k.val, hlt⟩ j = Cert.LibTileSum.blk tiles k j :=
    Fin.ext (by show 2048 * ((16 * (t.val / 16) + k.val) % 16) + j.val = 2048 * k.val + j.val; omega)
  rw [eq, et]

/-- What a writing point writes back is its block of the result array. -/
theorem flushed_eq (c : Dev nD) (t : Fin cfg0.N) (hf : (cfg0.win 5).flush t = true) :
    (dats m 0 c).flushed 5 t = ((cfg0.win 5).blk t).view.read (Elt Ideal) (result m c) := by
  have h1 : t.val % 16 = 15 := (flush0_5 t).mp hf
  have h0 : ¬t.val % 16 = 0 := by omega
  obtain ⟨-, -, -, -, -, -, -, -, -, -, e0, e1⟩ := idx_facts t
  rw [Cert.KernelIdeal.Value.flushed5_C m c t h0 h1]
  refine (congrArg ((cfg0.win 5).cut (grid0.coords t))
    (funext fun y => (Cert.KernelIdeal.Accum.out_last m c t h0 h1 y).trans (row_sum m c t y))).trans ?_
  funext y
  show rowVal (argX m c) (argY m c) (argW m c) (qrow t (y 0))
    = G (argX m c) (argY m c) (argW m c) (((cfg0.win 5).blk t).view.emb y)
  unfold G
  refine congrArg (rowVal (argX m c) (argY m c) (argW m c)) (Fin.ext ?_)
  show 1024 * (t.val / 16) + (y 0).val = win0_5.index t (0 : Fin 2) * 1024 + 1 * (y 0).val
  rw [e0]; omega

/-- An index of the result array lies in point `t`'s block iff each coordinate lies in the block's range. -/
theorem mem_blk (t : Fin cfg0.N) (i : S8192x1.Idx) :
    i ∈ ((cfg0.win 5).blk t).view.set ↔ ∀ a : Fin 2, win0_5.index t a * S1024x1.size a ≤ (i a).val
      ∧ (i a).val < win0_5.index t a * S1024x1.size a + S1024x1.size a := by
  show i ∈ ((View.whole main_v11).slice (win0_5.rect t)).set ↔ _
  rw [View.set_slice_whole, Rect.mem_set_unit]
  exact Iff.rfl

/-- Every row of the result array is in the block of the last point of its grid row. -/
theorem cover (i : S8192x1.Idx) :
    ∃ t : Fin cfg0.N, (cfg0.win 5).flush t = true ∧ i ∈ ((cfg0.win 5).blk t).view.set := by
  have hi0 : (i 0).val < 8192 := (i 0).isLt
  have hi1 : (i 1).val < 1 := (i 1).isLt
  have hN : 16 * ((i 0).val / 1024) + 15 < cfg0.N :=
    lt_of_lt_of_eq (by omega : 16 * ((i 0).val / 1024) + 15 < 128) (show cfg0.N = 128 from N_0).symm
  obtain ⟨-, -, -, -, -, -, -, -, -, -, e0, e1⟩ := idx_facts ⟨16 * ((i 0).val / 1024) + 15, hN⟩
  have e0' : win0_5.index ⟨16 * ((i 0).val / 1024) + 15, hN⟩ (0 : Fin 2) = (16 * ((i 0).val / 1024) + 15) / 16 := e0
  refine ⟨⟨16 * ((i 0).val / 1024) + 15, hN⟩, (flush0_5 _).mpr (by show (16 * ((i 0).val / 1024) + 15) % 16 = 15; omega), ?_⟩
  rw [mem_blk]
  intro a
  match a with
  | ⟨0, _⟩ =>
    show win0_5.index ⟨16 * ((i 0).val / 1024) + 15, hN⟩ (0 : Fin 2) * 1024 ≤ (i 0).val
      ∧ (i 0).val < win0_5.index ⟨16 * ((i 0).val / 1024) + 15, hN⟩ (0 : Fin 2) * 1024 + 1024
    rw [e0']; omega
  | ⟨1, _⟩ =>
    show win0_5.index ⟨16 * ((i 0).val / 1024) + 15, hN⟩ (1 : Fin 2) * 1 ≤ (i 1).val
      ∧ (i 1).val < win0_5.index ⟨16 * ((i 0).val / 1024) + 15, hN⟩ (1 : Fin 2) * 1 + 1
    rw [e1]; omega

/-- So the result array ends holding `G` of the arguments. -/
theorem final (c : Dev nD) : (dats m 0 c).arrAt 5 cfg0.N = result m c :=
  (dats m 0 c).arrAt_eq_of_cover 5 (result m c) (flushed_eq m c) cover

/-- The kernel's run, read: the result array at `G` of the arguments, the arguments unchanged. -/
theorem run : θ_run defs (onTc (τ := τ) (main (F := Ideal))) ⟨m, fun _ => 0, ρ⟩ fun r => ∀ c : Dev nD,
      r.2.mem ((c : Thread nD τ).loc main_v11) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.KernelIdeal.Final

end
-- ==== Proof.RefValue.lean ====
import proofs.«179468_j18863496364430_2_alg».proof.Proof.Spec
import proofs.«179468_j18863496364430_2_alg».proof.Proof.Gen.ReferenceIdeal.Read
import Idealize.ShloMosaic.Lib.ValueIdx
import Idealize.ShloMosaic.PureOps.Ideal.Laws

noncomputable section

open Idealize.ShloMosaic Idealize.ShloMosaic.TcCoe Idealize.SL.Sem Idealize.ShloMosaic.ValueIdx

/-
  The reference, read at an entry.

  Its last operation is the product of the Gaussian matrix with the weight column, so entry `(n, 0)` of the result is the
  sum over all training rows `q` of the matrix entry `(n, q)` times `w_q`; and the matrix entry is the exponential of the
  clamped squared distance of rows `x_n` and `y_q`, negated and halved, the squared distance being formed from the two
  squared norms (each a host sum from zero, broadcast along the other axis) and twice the dot product.
-/

namespace Cert.ReferenceIdeal.RefValue

open Cert.ReferenceIdeal Cert.ReferenceIdeal.Gen Cert.ReferenceIdeal.Read Cert.Spec

section Indices

variable (n : Fin 8192) (q : Fin 32768)

theorem e_l (u : Fin 1) : lidx_main_v19 (ix2 n u) q = ix2 n q :=
  funext fun a => Fin.ext (by match a with | ⟨0, _⟩ => rfl | ⟨1, _⟩ => rfl)
theorem e_r (u : Fin 1) : ridx_main_v19 (ix2 n u) q = ix2 q u :=
  funext fun a => Fin.ext (by match a with | ⟨0, _⟩ => rfl | ⟨1, _⟩ => rfl)
theorem e7 : idx_main_v7 (ix2 n q) = ix2 n (0 : Fin 1) :=
  funext fun a => Fin.ext (by match a with | ⟨0, _⟩ => rfl | ⟨1, _⟩ => rfl)
theorem e2 (u : Fin 1) : idx_main_v2 (ix2 n u) = ix1 n :=
  funext fun a => Fin.ext (by match a with | ⟨0, _⟩ => rfl)
theorem e1 (k : Fin 128) : idx_main_v1 (ix1 n) k = ix2 n k :=
  funext fun a => Fin.ext (by match a with | ⟨0, _⟩ => rfl | ⟨1, _⟩ => rfl)
theorem e8 : idx_main_v8 (ix2 n q) = ix2 (0 : Fin 1) q :=
  funext fun a => Fin.ext (by match a with | ⟨0, _⟩ => rfl | ⟨1, _⟩ => rfl)
theorem e6 (u : Fin 1) : idx_main_v6 (ix2 u q) = ix1 q :=
  funext fun a => Fin.ext (by match a with | ⟨0, _⟩ => rfl)
theorem e4 (k : Fin 128) : idx_main_v4 (ix1 q) k = ix2 q k :=
  funext fun a => Fin.ext (by match a with | ⟨0, _⟩ => rfl | ⟨1, _⟩ => rfl)
theorem e5l (k : Fin 128) : lidx_main_v5 (ix2 n q) k = ix2 n k :=
  funext fun a => Fin.ext (by match a with | ⟨0, _⟩ => rfl | ⟨1, _⟩ => rfl)
theorem e5r (k : Fin 128) : ridx_main_v5 (ix2 n q) k = ix2 q k :=
  funext fun a => Fin.ext (by match a with | ⟨0, _⟩ => rfl | ⟨1, _⟩ => rfl)

end Indices

/-- One summand of the reference's last product is the reference-form contribution of training row `q` to query row `n`. -/
theorem summand (x0 : XArr) (x1 : YArr) (x2 : WArr) (n : Fin 8192) (u : Fin 1) (q : Fin 32768) :
    val_main_v18 (F := Ideal) x0 x1 (lidx_main_v19 (ix2 n u) q) * x2 (ridx_main_v19 (ix2 n u) q) = refTerm x0 x1 x2 n q := by
  obtain rfl : u = 0 := Subsingleton.elim _ _
  rw [e_l, e_r]
  rw [val_main_v18_apply, val_main_v17_apply, val_main_v15_apply, val_main_v14_apply, val_main_v12_apply, val_main_v9_apply,
    val_main_v7_apply, val_main_v2_apply, val_main_v1_apply, val_main_v8_apply, val_main_v6_apply, val_main_v4_apply,
    val_main_v11_apply, val_main_v10_apply, val_main_v5_apply, val_main_v13_apply, val_main_v16_apply]
  simp only [e7, e2, e1, e8, e6, e4, e5l, e5r, val_main_v0_apply, val_main_v3_apply, val_main_cst_apply, val_main_cst_0_apply,
    val_main_cst_1_apply, val_main_cst_2_apply, val_main_cst_3_apply]
  rfl

/-- The reference's result array is `R` of its three arguments. -/
theorem ref_eq_R (x0 : XArr) (x1 : YArr) (x2 : WArr) : val_main_v19 (F := Ideal) x0 x1 x2 = R x0 x1 x2 := by
  funext i
  obtain ⟨n, u, rfl⟩ : ∃ (n : Fin 8192) (u : Fin 1), i = ix2 n u := ⟨i 0, i 1, eq_ix2 i⟩
  rw [val_main_v19_apply]
  exact Finset.sum_congr rfl fun q _ => summand x0 x1 x2 n u q

end Cert.ReferenceIdeal.RefValue

end
-- ==== Proof.FiniteInputs.lean ====
/-
  From the precondition to real entries.

  The precondition is the conjunction of three `all (|a| < +∞)` tests, one per argument array. A conjunction of one-bit
  words is 1 only if each is; an `all` is 1 only if the test holds at every index; and an extended real whose absolute
  value `max a (−a)` lies strictly below `+∞` is neither `+∞` nor `−∞`, hence a real number.
-/
import proofs.«179468_j18863496364430_2_alg».proof.Pre_finite_inputs
import proofs.«179468_j18863496364430_2_alg».proof.Proof.Gen.Pre_finite_inputs
import proofs.«179468_j18863496364430_2_alg».proof.Proof.Spec
import Idealize.ShloMosaic.Lib.ReduceAll
import Idealize.ShloMosaic.Lib.ValueIdx
import Idealize.ShloMosaic.PureOps.Ideal

noncomputable section

namespace Cert.FiniteInputs

open Idealize.ShloMosaic Cert.Pre_finite_inputs

instance : Subsingleton S_.Idx := ⟨fun a b => funext fun d => d.elim0⟩

/-- The word of `+∞` denotes the top of the extended reals. -/
theorem ofBits_inf : Ideal.ofBits .f32 0x7F800000#32 = ⊤ := by
  simp [Ideal.ofBits, Ideal.ieee]

/-- An extended real whose absolute value is strictly below `+∞` is a real number. -/
theorem real_of_abs_lt_top (a : EReal)
    (h : Ideal.cmp .olt (max a (-a)) (Ideal.ofBits .f32 0x7F800000#32) = 1#1) : ∃ r : ℝ, a = (r : EReal) := by
  rw [ofBits_inf] at h
  have hlt : max a (-a) < ⊤ := by
    by_contra hn
    simp [Ideal.cmp, hn] at h
  induction a using EReal.rec with
  | bot => simp at hlt
  | top => simp at hlt
  | coe r => exact ⟨r, rfl⟩

/-- Under the precondition the query and the training arrays have real entries. -/
theorem allReal_of_pre (X : Cert.Spec.XArr) (Y : Cert.Spec.YArr) (W : Cert.Spec.WArr)
    (h : Cert.Pre_finite_inputs.fn (F := Ideal) X Y W = fun _ => 1#1) :
    Cert.Spec.AllReal X ∧ Cert.Spec.AllReal Y := by
  have h0 := congrFun h ValueIdx.ix0
  dsimp only [Cert.Pre_finite_inputs.fn] at h0
  obtain ⟨h12, -⟩ := IntOp.andi_eq_one.mp h0
  obtain ⟨h1, h2⟩ := IntOp.andi_eq_one.mp h12
  refine ⟨fun i => ?_, fun i => ?_⟩
  · exact real_of_abs_lt_top (X i) (Host.reduce_andi_all _ _ _ _ _ h1 i)
  · exact real_of_abs_lt_top (Y i) (Host.reduce_andi_all _ _ _ _ _ h2 i)

end Cert.FiniteInputs

end
-- ==== Proof.lean ====
/-
  A Gaussian-kernel prediction: for query rows `x_n`, training rows `y_q` and weights `w_q`,
      out_n = ∑_q exp (−‖x_n − y_q‖² / 2) · w_q,       ‖x − y‖² taken as max (‖x‖² + ‖y‖² − 2 x·y) 0.

  The kernel visits an 8 × 16 grid of tiles (1024 query rows by 2048 training rows). In a tile it forms the dot
  products as three partial products of "high" and "low" parts of the operands; over the extended reals a change of
  float format is the identity, so the high part is the operand and the low part is `x − x`, which is 0 when `x` is real.
  It then adds the two squared norms pre-scaled by −½ on the host, clamps from above at 0 — `min (x·y − ‖x‖²/2 − ‖y‖²/2) 0`
  is `−max (‖x‖² + ‖y‖² − 2 x·y) 0 / 2` over the reals —, exponentiates, weights, sums the tile's rows, and accumulates
  the row sums over the 16 tiles of a grid row in a scratch column that it zeroes at the first tile and copies out at
  the last. The reference computes the whole Gaussian matrix and multiplies it by the weight column.

  Both results are therefore sums of the same terms, the kernel's grouped 16 × 2048 and the reference's in one go;
  sums on the extended reals may be regrouped freely, and the terms agree once the entries of the query and training
  arrays are real, which is what the precondition says. The modules: `ClampLaw` / `RowLaw` (the law at one pair of rows),
  `Spec` (the common function and the regrouping), `Pieces` / `TileRow` / `Blocks` / `Accum` / `KernelValue` (what the
  kernel's run leaves in its result array), `RefValue` (the reference's result array), `FiniteInputs` (real entries
  from the precondition).
-/
import proofs.«179468_j18863496364430_2_alg».proof.Defs
import proofs.«179468_j18863496364430_2_alg».proof.Proof.Gen.Kernel
import proofs.«179468_j18863496364430_2_alg».proof.Proof.Gen.Kernel.Skeleton
import proofs.«179468_j18863496364430_2_alg».proof.Proof.Gen.Kernel.Launch
import proofs.«179468_j18863496364430_2_alg».proof.Proof.Gen.Kernel.Points
import proofs.«179468_j18863496364430_2_alg».proof.Proof.Gen.Kernel.Frame
import proofs.«179468_j18863496364430_2_alg».proof.Proof.Gen.KernelIdeal
import proofs.«179468_j18863496364430_2_alg».proof.Proof.Gen.KernelIdeal.Skeleton
import proofs.«179468_j18863496364430_2_alg».proof.Proof.Gen.KernelIdeal.Launch
import proofs.«179468_j18863496364430_2_alg».proof.Proof.Gen.KernelIdeal.Points
import proofs.«179468_j18863496364430_2_alg».proof.Proof.Gen.KernelIdeal.Frame
import proofs.«179468_j18863496364430_2_alg».proof.Proof.Gen.KernelIdeal.Value
import proofs.«179468_j18863496364430_2_alg».proof.Proof.Gen.ReferenceIdeal
import proofs.«179468_j18863496364430_2_alg».proof.Proof.Gen.ReferenceIdeal.Run
import proofs.«179468_j18863496364430_2_alg».proof.Proof.Gen.ReferenceIdeal.Read
import proofs.«179468_j18863496364430_2_alg».proof.Proof.Gen.Pre_finite_inputs
import proofs.«179468_j18863496364430_2_alg».proof.Proof.KernelValue
import proofs.«179468_j18863496364430_2_alg».proof.Proof.RefValue
import proofs.«179468_j18863496364430_2_alg».proof.Proof.FiniteInputs
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The two removed round trips through the narrower format are the identity on the extended reals. -/
theorem preserves : Cert.preserves_Kernel_KernelIdeal :=
  ⟨IdealRules.truncf_extf.statement _ .f32 .bf16, IdealRules.truncf_extf.statement _ .f32 .bf16⟩

/-- The kernel's result array ends at `G` of its arguments, the reference's at `R` of arguments that agree with them; and
    `G = R` on arrays of real entries, which the precondition provides. -/
theorem algebraic : Cert.algebraic_KernelIdeal_ReferenceIdeal := by
  intro m ρ m' ρ' hpre hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, (hagree c).1, (hagree c).2.1, (hagree c).2.2]
  obtain ⟨hX, hY⟩ := Cert.FiniteInputs.allReal_of_pre _ _ _ (hpre c)
  exact (Cert.ReferenceIdeal.RefValue.ref_eq_R _ _ _).trans (Cert.Spec.G_eq_R _ hX hY).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
